-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x1024x64 : Shape := ⟨3, ![32, 1024, 64]⟩
abbrev S32x32x2 : Shape := ⟨3, ![32, 32, 2]⟩
abbrev S32x32x32x32 : Shape := ⟨4, ![32, 32, 32, 32]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S32x1024x64 : S_.BroadcastsInDim S32x1024x64 (![] : Fin 0 → Fin S32x1024x64.rank)
  reducesTo_S32x1024x64_S_d0_1_2 : S32x1024x64.ReducesTo [0, 1, 2] S_
  bcast_S_S32x32x32x32 : S_.BroadcastsInDim S32x32x32x32 (![] : Fin 0 → Fin S32x32x32x32.rank)
  reducesTo_S32x32x32x32_S_d0_1_2_3 : S32x32x32x32.ReducesTo [0, 1, 2, 3] S_

variable [Facts]

def fn {F : FTy → Type} [FloatOps F] (main_arg0 : FVec F S32x2048x64 .f32) (main_arg1 : FVec F S32x1024x64 .f32) (main_arg2 : IVec S32x32x2 32) (main_arg3 : FVec F S32x32x32x32 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x1024x64 .f32 := Host.absf main_arg1
  let main_cst_0 : FVec F S_ .f32 := constant S_ .f32 0x7F800000#32
  let main_v5 : FVec F S32x1024x64 .f32 := broadcastInDim S32x1024x64 ![] bcast_S_S32x1024x64 main_cst_0
  let main_v6 : IVec S32x1024x64 1 := cmpf .olt main_v4 main_v5
  let main_c_1 : IVec S_ 1 := constantI S_ 1 1#1
  let main_v7 : IVec S_ 1 := (fun x v => Host.reduce IntOp.andi x v reducesTo_S32x1024x64_S_d0_1_2 h_S_) main_v6 main_c_1
  let main_v8 : IVec S_ 1 := andi main_v3 main_v7
  let main_v9 : FVec F S32x32x32x32 .f32 := Host.absf main_arg3
  let main_cst_2 : FVec F S_ .f32 := constant S_ .f32 0x7F800000#32
  let main_v10 : FVec F S32x32x32x32 .f32 := broadcastInDim S32x32x32x32 ![] bcast_S_S32x32x32x32 main_cst_2
  let main_v11 : IVec S32x32x32x32 1 := cmpf .olt main_v9 main_v10
  let main_c_3 : IVec S_ 1 := constantI S_ 1 1#1
  let main_v12 : IVec S_ 1 := (fun x v => Host.reduce IntOp.andi x v reducesTo_S32x32x32x32_S_d0_1_2_3 h_S_) main_v11 main_c_3
  let main_v13 : IVec S_ 1 := andi main_v8 main_v12
  main_v13
-- ==== Kernel.lean ====
abbrev S32x2048x64 : Shape := ⟨3, ![32, 2048, 64]⟩
abbrev S32x1024x64 : Shape := ⟨3, ![32, 1024, 64]⟩
abbrev S32x32x2 : Shape := ⟨3, ![32, 32, 2]⟩
abbrev S32x32x32x32 : Shape := ⟨4, ![32, 32, 32, 32]⟩
abbrev S32x32x1 : Shape := ⟨3, ![32, 32, 1]⟩
abbrev S32x32 : Shape := ⟨2, ![32, 32]⟩
abbrev S32 : Shape := ⟨1, ![32]⟩
abbrev S1x1x32 : Shape := ⟨3, ![1, 1, 32]⟩
abbrev S32x32x32 : Shape := ⟨3, ![32, 32, 32]⟩
abbrev S32x1x2048x64 : Shape := ⟨4, ![32, 1, 2048, 64]⟩
abbrev S32x32x32x1 : Shape := ⟨4, ![32, 32, 32, 1]⟩
abbrev S_ : Shape := ⟨0, ![]⟩
abbrev S1 : Shape := ⟨1, ![1]⟩
abbrev S1x1x1x1 : Shape := ⟨4, ![1, 1, 1, 1]⟩
abbrev S32x32x32x64 : Shape := ⟨4, ![32, 32, 32, 64]⟩
abbrev S32x1x1024x64 : Shape := ⟨4, ![32, 1, 1024, 64]⟩
abbrev S32x32x32x32x129 : Shape := ⟨5, ![32, 32, 32, 32, 129]⟩
abbrev S1x1x32x64 : Shape := ⟨4, ![1, 1, 32, 64]⟩
abbrev S1x1x32x32 : Shape := ⟨4, ![1, 1, 32, 32]⟩
abbrev S1x1x32x32x129 : Shape := ⟨5, ![1, 1, 32, 32, 129]⟩
abbrev S32x64 : Shape := ⟨2, ![32, 64]⟩
abbrev S1x32x64 : Shape := ⟨3, ![1, 32, 64]⟩
abbrev S32x32x64 : Shape := ⟨3, ![32, 32, 64]⟩
abbrev S32x1x64 : Shape := ⟨3, ![32, 1, 64]⟩
abbrev S32x32x129 : Shape := ⟨3, ![32, 32, 129]⟩

abbrev nBuf : Space → Nat
  | .hbm => 71
  | .vmem => 8
  | .smem => 0
  | _ => 0

abbrev bufTy : (tb : Table) → Fin (tcTables nBuf tb) → BufTy
  | .hbm, ⟨0, _⟩ => ⟨S32x2048x64, .f32⟩
  | .hbm, ⟨1, _⟩ => ⟨S32x1024x64, .f32⟩
  | .hbm, ⟨2, _⟩ => ⟨S32x32x2, .i32⟩
  | .hbm, ⟨3, _⟩ => ⟨S32x32x32x32, .f32⟩
  | .hbm, ⟨4, _⟩ => ⟨S32x32x1, .i32⟩
  | .hbm, ⟨5, _⟩ => ⟨S32x32, .i32⟩
  | .hbm, ⟨6, _⟩ => ⟨S32x32x1, .i32⟩
  | .hbm, ⟨7, _⟩ => ⟨S32, .i32⟩
  | .hbm, ⟨8, _⟩ => ⟨S1x1x32, .i32⟩
  | .hbm, ⟨9, _⟩ => ⟨S32x32x32, .i32⟩
  | .hbm, ⟨10, _⟩ => ⟨S32x32x32, .i32⟩
  | .hbm, ⟨11, _⟩ => ⟨S32x32x32, .i32⟩
  | .hbm, ⟨12, _⟩ => ⟨S32x1x2048x64, .f32⟩
  | .hbm, ⟨13, _⟩ => ⟨S32x32x32x1, .i32⟩
  | .hbm, ⟨14, _⟩ => ⟨S_, .i32⟩
  | .hbm, ⟨15, _⟩ => ⟨S32x32x32x1, .i32⟩
  | .hbm, ⟨16, _⟩ => ⟨S32x32x32x1, .i1⟩
  | .hbm, ⟨17, _⟩ => ⟨S_, .i32⟩
  | .hbm, ⟨18, _⟩ => ⟨S32x32x32x1, .i32⟩
  | .hbm, ⟨19, _⟩ => ⟨S32x32x32x1, .i32⟩
  | .hbm, ⟨20, _⟩ => ⟨S32x32x32x1, .i32⟩
  | .hbm, ⟨21, _⟩ => ⟨S32x2048x64, .f32⟩
  | .hbm, ⟨22, _⟩ => ⟨S1, .i32⟩
  | .hbm, ⟨23, _⟩ => ⟨S_, .i32⟩
  | .hbm, ⟨24, _⟩ => ⟨S32x32x32x1, .i32⟩
  | .hbm, ⟨25, _⟩ => ⟨S32x32x32x1, .i1⟩
  | .hbm, ⟨26, _⟩ => ⟨S1x1x1x1, .i32⟩
  | .hbm, ⟨27, _⟩ => ⟨S32x32x32x1, .i32⟩
  | .hbm, ⟨28, _⟩ => ⟨S32x32x32x1, .i1⟩
  | .hbm, ⟨29, _⟩ => ⟨S32x32x32x1, .i1⟩
  | .hbm, ⟨30, _⟩ => ⟨S_, .i1⟩
  | .hbm, ⟨31, _⟩ => ⟨S32x32x32, .i1⟩
  | .hbm, ⟨32, _⟩ => ⟨S32x32x32x64, .f32⟩
  | .hbm, ⟨33, _⟩ => ⟨S32x32x32x64, .i1⟩
  | .hbm, ⟨34, _⟩ => ⟨S_, .f32⟩
  | .hbm, ⟨35, _⟩ => ⟨S32x32x32x64, .f32⟩
  | .hbm, ⟨36, _⟩ => ⟨S32x32x32x64, .f32⟩
  | .hbm, ⟨37, _⟩ => ⟨S32x32x1, .i32⟩
  | .hbm, ⟨38, _⟩ => ⟨S32x32, .i32⟩
  | .hbm, ⟨39, _⟩ => ⟨S32x32x1, .i32⟩
  | .hbm, ⟨40, _⟩ => ⟨S32, .i32⟩
  | .hbm, ⟨41, _⟩ => ⟨S1x1x32, .i32⟩
  | .hbm, ⟨42, _⟩ => ⟨S32x32x32, .i32⟩
  | .hbm, ⟨43, _⟩ => ⟨S32x32x32, .i32⟩
  | .hbm, ⟨44, _⟩ => ⟨S32x32x32, .i32⟩
  | .hbm, ⟨45, _⟩ => ⟨S32x1x1024x64, .f32⟩
  | .hbm, ⟨46, _⟩ => ⟨S32x32x32x1, .i32⟩
  | .hbm, ⟨47, _⟩ => ⟨S_, .i32⟩
  | .hbm, ⟨48, _⟩ => ⟨S32x32x32x1, .i32⟩
  | .hbm, ⟨49, _⟩ => ⟨S32x32x32x1, .i1⟩
  | .hbm, ⟨50, _⟩ => ⟨S_, .i32⟩
  | .hbm, ⟨51, _⟩ => ⟨S32x32x32x1, .i32⟩
  | .hbm, ⟨52, _⟩ => ⟨S32x32x32x1, .i32⟩
  | .hbm, ⟨53, _⟩ => ⟨S32x32x32x1, .i32⟩
  | .hbm, ⟨54, _⟩ => ⟨S32x1024x64, .f32⟩
  | .hbm, ⟨55, _⟩ => ⟨S1, .i32⟩
  | .hbm, ⟨56, _⟩ => ⟨S_, .i32⟩
  | .hbm, ⟨57, _⟩ => ⟨S32x32x32x1, .i32⟩
  | .hbm, ⟨58, _⟩ => ⟨S32x32x32x1, .i1⟩
  | .hbm, ⟨59, _⟩ => ⟨S1x1x1x1, .i32⟩
  | .hbm, ⟨60, _⟩ => ⟨S32x32x32x1, .i32⟩
  | .hbm, ⟨61, _⟩ => ⟨S32x32x32x1, .i1⟩
  | .hbm, ⟨62, _⟩ => ⟨S32x32x32x1, .i1⟩
  | .hbm, ⟨63, _⟩ => ⟨S_, .i1⟩
  | .hbm, ⟨64, _⟩ => ⟨S32x32x32, .i1⟩
  | .hbm, ⟨65, _⟩ => ⟨S32x32x32x64, .f32⟩
  | .hbm, ⟨66, _⟩ => ⟨S32x32x32x64, .i1⟩
  | .hbm, ⟨67, _⟩ => ⟨S_, .f32⟩
  | .hbm, ⟨68, _⟩ => ⟨S32x32x32x64, .f32⟩
  | .hbm, ⟨69, _⟩ => ⟨S32x32x32x64, .f32⟩
  | .hbm, ⟨70, _⟩ => ⟨S32x32x32x32x129, .f32⟩
  | .local _ .vmem, ⟨0, _⟩ => ⟨S1x1x32x64, .f32⟩
  | .local _ .vmem, ⟨1, _⟩ => ⟨S1x1x32x64, .f32⟩
  | .local _ .vmem, ⟨2, _⟩ => ⟨S1x1x32x64, .f32⟩
  | .local _ .vmem, ⟨3, _⟩ => ⟨S1x1x32x64, .f32⟩
  | .local _ .vmem, ⟨4, _⟩ => ⟨S1x1x32x32, .f32⟩
  | .local _ .vmem, ⟨5, _⟩ => ⟨S1x1x32x32, .f32⟩
  | .local _ .vmem, ⟨6, _⟩ => ⟨S1x1x32x32x129, .f32⟩
  | .local _ .vmem, ⟨7, _⟩ => ⟨S1x1x32x32x129, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v21 : Ref sig .tc := ⟨.hbm, 69, rfl⟩
abbrev main_v22 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32x32x129 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S32x32x2_S32x32x1_0_0_0 : S32x32x2.Slices ![0, 0, 0] S32x32x1
  shapeCasts_S32x32x1_S32x32 : S32x32x1.ShapeCasts S32x32
  bcast_S32x32_S32x32x1_0_1 : S32x32.BroadcastsInDim S32x32x1 (![0, 1] : Fin 2 → Fin S32x32x1.rank)
  bcast_S32_S1x1x32_2 : S32.BroadcastsInDim S1x1x32 (![2] : Fin 1 → Fin S1x1x32.rank)
  bcast_S32x32x1_S32x32x32_0_1_2 : S32x32x1.BroadcastsInDim S32x32x32 (![0, 1, 2] : Fin 3 → Fin S32x32x32.rank)
  bcast_S1x1x32_S32x32x32_0_1_2 : S1x1x32.BroadcastsInDim S32x32x32 (![0, 1, 2] : Fin 3 → Fin S32x32x32.rank)
  bcast_S32x2048x64_S32x1x2048x64_0_2_3 : S32x2048x64.BroadcastsInDim S32x1x2048x64 (![0, 2, 3] : Fin 3 → Fin S32x1x2048x64.rank)
  bcast_S32x32x32_S32x32x32x1_0_1_2 : S32x32x32.BroadcastsInDim S32x32x32x1 (![0, 1, 2] : Fin 3 → Fin S32x32x32x1.rank)
  bcast_S_S32x32x32x1 : S_.BroadcastsInDim S32x32x32x1 (![] : Fin 0 → Fin S32x32x32x1.rank)
  shapeCasts_S32x1x2048x64_S32x2048x64 : S32x1x2048x64.ShapeCasts S32x2048x64
  bcast_S1_S1x1x1x1_3 : S1.BroadcastsInDim S1x1x1x1 (![3] : Fin 1 → Fin S1x1x1x1.rank)
  bcast_S1x1x1x1_S32x32x32x1_0_1_2_3 : S1x1x1x1.BroadcastsInDim S32x32x32x1 (![0, 1, 2, 3] : Fin 4 → Fin S32x32x32x1.rank)
  reducesTo_S32x32x32x1_S32x32x32_d3 : S32x32x32x1.ReducesTo [3] S32x32x32
  h_S_ : 0 < S_.numel
  bcast_S32x32x32_S32x32x32x64_0_1_2 : S32x32x32.BroadcastsInDim S32x32x32x64 (![0, 1, 2] : Fin 3 → Fin S32x32x32x64.rank)
  bcast_S_S32x32x32x64 : S_.BroadcastsInDim S32x32x32x64 (![] : Fin 0 → Fin S32x32x32x64.rank)
  slices_S32x32x2_S32x32x1_0_0_1 : S32x32x2.Slices ![0, 0, 1] S32x32x1
  bcast_S32x1024x64_S32x1x1024x64_0_2_3 : S32x1024x64.BroadcastsInDim S32x1x1024x64 (![0, 2, 3] : Fin 3 → Fin S32x1x1024x64.rank)
  shapeCasts_S32x1x1024x64_S32x1024x64 : S32x1x1024x64.ShapeCasts S32x1024x64
  inb_S1x1x32x64_S1x1x32x64_0_0_0_0 : ∀ a, (![0, 0, 0, 0] : Fin 4 → Nat) a + S1x1x32x64.size a ≤ S1x1x32x64.size a
  h_S1x1x32x64 : 0 < S1x1x32x64.numel
  shapeCasts_S1x1x32x64_S32x64 : S1x1x32x64.ShapeCasts S32x64
  inb_S1x1x32x32_S1x1x32x32_0_0_0_0 : ∀ a, (![0, 0, 0, 0] : Fin 4 → Nat) a + S1x1x32x32.size a ≤ S1x1x32x32.size a
  h_S1x1x32x32 : 0 < S1x1x32x32.numel
  shapeCasts_S1x1x32x32_S32x32 : S1x1x32x32.ShapeCasts S32x32
  shapeCasts_S32x64_S1x32x64 : S32x64.ShapeCasts S1x32x64
  shapeCasts_S1x32x64_S1x32x64 : S1x32x64.ShapeCasts S1x32x64
  broadcasts_S1x32x64_S32x32x64 : S1x32x64.Broadcasts S32x32x64
  shapeCasts_S32x64_S32x1x64 : S32x64.ShapeCasts S32x1x64
  shapeCasts_S32x1x64_S32x1x64 : S32x1x64.ShapeCasts S32x1x64
  broadcasts_S32x1x64_S32x32x64 : S32x1x64.Broadcasts S32x32x64
  shapeCasts_S32x32_S32x32x1 : S32x32.ShapeCasts S32x32x1
  concatenates_S32x32x64_S32x32x64_S32x32x1_S32x32x129_d2 : Shape.Concatenates [S32x32x64, S32x32x64, S32x32x1] S32x32x129 2
  inb_S1x1x32x32x129_S1x1x32x32x129_0_0_0_0_0 : ∀ a, (![0, 0, 0, 0, 0] : Fin 5 → Nat) a + S1x1x32x32x129.size a ≤ S1x1x32x32x129.size a
  h_S1x1x32x32x129 : 0 < S1x1x32x32x129.numel
  shapeCasts_S1x1x32x32x129_S32x32x129 : S1x1x32x32x129.ShapeCasts S32x32x129
  shapeCasts_S32x32x129_S1x1x32x32x129 : S32x32x129.ShapeCasts S1x1x32x32x129
  gather_S32x2048x64_S32x32x32x1_S32x32x32x64_3_1_0_0_1_3_1164_wf : GatherDims.WF S32x2048x64 S32x32x32x1 S32x32x32x64 [3] [1] [0] [1] [0] 3 ![1, 1, 64]
  gather_S32x1024x64_S32x32x32x1_S32x32x32x64_3_1_0_0_1_3_1164_wf : GatherDims.WF S32x1024x64 S32x32x32x1 S32x32x32x64 [3] [1] [0] [1] [0] 3 ![1, 1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x64.size a ≤ S32x32x32x64.size a
  hwx0_0 : ∀ i : grid0.Coords, EltTy.bits .f32 = 32 ∨ (Rect.block (s := S32x32x32x64) S1x1x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32x64.size a ≤ S32x32x32x64.size a
  hwx0_1 : ∀ i : grid0.Coords, EltTy.bits .f32 = 32 ∨ (Rect.block (s := S32x32x32x64) S1x1x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32x32.size a ≤ S32x32x32x32.size a
  hwx0_2 : ∀ i : grid0.Coords, EltTy.bits .f32 = 32 ∨ (Rect.block (s := S32x32x32x32) S1x1x32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32x32x129.size a ≤ S32x32x32x32x129.size a
  hwx0_3 : ∀ i : grid0.Coords, EltTy.bits .f32 = 32 ∨ (Rect.block (s := S32x32x32x32x129) S1x1x32x32x129.size (cc0_transform_3 i) (hinb0_3 i)).WholeWords (EltTy.packing .f32)

variable [Facts₀]

def gather_S32x2048x64_S32x32x32x1_S32x32x32x64_3_1_0_0_1_3_1164 : GatherDims S32x2048x64 S32x32x32x1 S32x32x32x64 where
  offsetDims := [3]
  collapsedSliceDims := [1]
  operandBatchingDims := [0]
  startIndicesBatchingDims := [0]
  startIndexMap := [1]
  indexVectorDim := 3
  sliceSizes := ![1, 1, 64]
  wf := gather_S32x2048x64_S32x32x32x1_S32x32x32x64_3_1_0_0_1_3_1164_wf
def gather_S32x1024x64_S32x32x32x1_S32x32x32x64_3_1_0_0_1_3_1164 : GatherDims S32x1024x64 S32x32x32x1 S32x32x32x64 where
  offsetDims := [3]
  collapsedSliceDims := [1]
  operandBatchingDims := [0]
  startIndicesBatchingDims := [0]
  startIndexMap := [1]
  indexVectorDim := 3
  sliceSizes := ![1, 1, 64]
  wf := gather_S32x1024x64_S32x32x32x1_S32x32x32x64_3_1_0_0_1_3_1164_wf

abbrev win0_0 : Pipeline.Window sig grid0 :=
  Pipeline.Window.ofSpec (Memref.whole main_v10) S1x1x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x1x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1x32x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x1x32x32x129.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x1024x64 : Shape := ⟨3, ![32, 1024, 64]⟩
abbrev S32x32x2 : Shape := ⟨3, ![32, 32, 2]⟩
abbrev S32x32x32x32 : Shape := ⟨4, ![32, 32, 32, 32]⟩
abbrev S32x32x1 : Shape := ⟨3, ![32, 32, 1]⟩
abbrev S32x32 : Shape := ⟨2, ![32, 32]⟩
abbrev S32 : Shape := ⟨1, ![32]⟩
abbrev S1x1x32 : Shape := ⟨3, ![1, 1, 32]⟩
abbrev S32x32x32 : Shape := ⟨3, ![32, 32, 32]⟩
abbrev S32x1x2048x64 : Shape := ⟨4, ![32, 1, 2048, 64]⟩
abbrev S32x32x32x1 : Shape := ⟨4, ![32, 32, 32, 1]⟩
abbrev S_ : Shape := ⟨0, ![]⟩
abbrev S1 : Shape := ⟨1, ![1]⟩
abbrev S1x1x1x1 : Shape := ⟨4, ![1, 1, 1, 1]⟩
abbrev S32x32x32x64 : Shape := ⟨4, ![32, 32, 32, 64]⟩
abbrev S32x1x1024x64 : Shape := ⟨4, ![32, 1, 1024, 64]⟩
abbrev S32x32x1x32x64 : Shape := ⟨5, ![32, 32, 1, 32, 64]⟩
abbrev S32x32x32x32x64 : Shape := ⟨5, ![32, 32, 32, 32, 64]⟩
abbrev S32x32x32x1x64 : Shape := ⟨5, ![32, 32, 32, 1, 64]⟩
abbrev S32x32x32x32x1 : Shape := ⟨5, ![32, 32, 32, 32, 1]⟩
abbrev S32x32x32x32x129 : Shape := ⟨5, ![32, 32, 32, 32, 129]⟩

abbrev nBuf : Space → Nat
  | .hbm => 76
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x1024x64, .f32⟩
  | .hbm, ⟨2, _⟩ => ⟨S32x32x2, .i32⟩
  | .hbm, ⟨3, _⟩ => ⟨S32x32x32x32, .f32⟩
  | .hbm, ⟨4, _⟩ => ⟨S32x32x1, .i32⟩
  | .hbm, ⟨5, _⟩ => ⟨S32x32, .i32⟩
  | .hbm, ⟨6, _⟩ => ⟨S32x32x1, .i32⟩
  | .hbm, ⟨7, _⟩ => ⟨S32, .i32⟩
  | .hbm, ⟨8, _⟩ => ⟨S1x1x32, .i32⟩
  | .hbm, ⟨9, _⟩ => ⟨S32x32x32, .i32⟩
  | .hbm, ⟨10, _⟩ => ⟨S32x32x32, .i32⟩
  | .hbm, ⟨11, _⟩ => ⟨S32x32x32, .i32⟩
  | .hbm, ⟨12, _⟩ => ⟨S32x1x2048x64, .f32⟩
  | .hbm, ⟨13, _⟩ => ⟨S32x32x32x1, .i32⟩
  | .hbm, ⟨14, _⟩ => ⟨S_, .i32⟩
  | .hbm, ⟨15, _⟩ => ⟨S32x32x32x1, .i32⟩
  | .hbm, ⟨16, _⟩ => ⟨S32x32x32x1, .i1⟩
  | .hbm, ⟨17, _⟩ => ⟨S_, .i32⟩
  | .hbm, ⟨18, _⟩ => ⟨S32x32x32x1, .i32⟩
  | .hbm, ⟨19, _⟩ => ⟨S32x32x32x1, .i32⟩
  | .hbm, ⟨20, _⟩ => ⟨S32x32x32x1, .i32⟩
  | .hbm, ⟨21, _⟩ => ⟨S32x2048x64, .f32⟩
  | .hbm, ⟨22, _⟩ => ⟨S1, .i32⟩
  | .hbm, ⟨23, _⟩ => ⟨S_, .i32⟩
  | .hbm, ⟨24, _⟩ => ⟨S32x32x32x1, .i32⟩
  | .hbm, ⟨25, _⟩ => ⟨S32x32x32x1, .i1⟩
  | .hbm, ⟨26, _⟩ => ⟨S1x1x1x1, .i32⟩
  | .hbm, ⟨27, _⟩ => ⟨S32x32x32x1, .i32⟩
  | .hbm, ⟨28, _⟩ => ⟨S32x32x32x1, .i1⟩
  | .hbm, ⟨29, _⟩ => ⟨S32x32x32x1, .i1⟩
  | .hbm, ⟨30, _⟩ => ⟨S_, .i1⟩
  | .hbm, ⟨31, _⟩ => ⟨S32x32x32, .i1⟩
  | .hbm, ⟨32, _⟩ => ⟨S32x32x32x64, .f32⟩
  | .hbm, ⟨33, _⟩ => ⟨S32x32x32x64, .i1⟩
  | .hbm, ⟨34, _⟩ => ⟨S_, .f32⟩
  | .hbm, ⟨35, _⟩ => ⟨S32x32x32x64, .f32⟩
  | .hbm, ⟨36, _⟩ => ⟨S32x32x32x64, .f32⟩
  | .hbm, ⟨37, _⟩ => ⟨S32x32x1, .i32⟩
  | .hbm, ⟨38, _⟩ => ⟨S32x32, .i32⟩
  | .hbm, ⟨39, _⟩ => ⟨S32x32x1, .i32⟩
  | .hbm, ⟨40, _⟩ => ⟨S32, .i32⟩
  | .hbm, ⟨41, _⟩ => ⟨S1x1x32, .i32⟩
  | .hbm, ⟨42, _⟩ => ⟨S32x32x32, .i32⟩
  | .hbm, ⟨43, _⟩ => ⟨S32x32x32, .i32⟩
  | .hbm, ⟨44, _⟩ => ⟨S32x32x32, .i32⟩
  | .hbm, ⟨45, _⟩ => ⟨S32x1x1024x64, .f32⟩
  | .hbm, ⟨46, _⟩ => ⟨S32x32x32x1, .i32⟩
  | .hbm, ⟨47, _⟩ => ⟨S_, .i32⟩
  | .hbm, ⟨48, _⟩ => ⟨S32x32x32x1, .i32⟩
  | .hbm, ⟨49, _⟩ => ⟨S32x32x32x1, .i1⟩
  | .hbm, ⟨50, _⟩ => ⟨S_, .i32⟩
  | .hbm, ⟨51, _⟩ => ⟨S32x32x32x1, .i32⟩
  | .hbm, ⟨52, _⟩ => ⟨S32x32x32x1, .i32⟩
  | .hbm, ⟨53, _⟩ => ⟨S32x32x32x1, .i32⟩
  | .hbm, ⟨54, _⟩ => ⟨S32x1024x64, .f32⟩
  | .hbm, ⟨55, _⟩ => ⟨S1, .i32⟩
  | .hbm, ⟨56, _⟩ => ⟨S_, .i32⟩
  | .hbm, ⟨57, _⟩ => ⟨S32x32x32x1, .i32⟩
  | .hbm, ⟨58, _⟩ => ⟨S32x32x32x1, .i1⟩
  | .hbm, ⟨59, _⟩ => ⟨S1x1x1x1, .i32⟩
  | .hbm, ⟨60, _⟩ => ⟨S32x32x32x1, .i32⟩
  | .hbm, ⟨61, _⟩ => ⟨S32x32x32x1, .i1⟩
  | .hbm, ⟨62, _⟩ => ⟨S32x32x32x1, .i1⟩
  | .hbm, ⟨63, _⟩ => ⟨S_, .i1⟩
  | .hbm, ⟨64, _⟩ => ⟨S32x32x32, .i1⟩
  | .hbm, ⟨65, _⟩ => ⟨S32x32x32x64, .f32⟩
  | .hbm, ⟨66, _⟩ => ⟨S32x32x32x64, .i1⟩
  | .hbm, ⟨67, _⟩ => ⟨S_, .f32⟩
  | .hbm, ⟨68, _⟩ => ⟨S32x32x32x64, .f32⟩
  | .hbm, ⟨69, _⟩ => ⟨S32x32x32x64, .f32⟩
  | .hbm, ⟨70, _⟩ => ⟨S32x32x1x32x64, .f32⟩
  | .hbm, ⟨71, _⟩ => ⟨S32x32x32x32x64, .f32⟩
  | .hbm, ⟨72, _⟩ => ⟨S32x32x32x1x64, .f32⟩
  | .hbm, ⟨73, _⟩ => ⟨S32x32x32x32x64, .f32⟩
  | .hbm, ⟨74, _⟩ => ⟨S32x32x32x32x1, .f32⟩
  | .hbm, ⟨75, _⟩ => ⟨S32x32x32x32x129, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩

abbrev nD : Nat := 1
abbrev τ : Topo := Topo.v7x

variable {F : FTy → Type} [FloatOps F]

class Facts₀ : Prop where
  slices_S32x32x2_S32x32x1_0_0_0 : S32x32x2.Slices ![0, 0, 0] S32x32x1
  shapeCasts_S32x32x1_S32x32 : S32x32x1.ShapeCasts S32x32
  bcast_S32x32_S32x32x1_0_1 : S32x32.BroadcastsInDim S32x32x1 (![0, 1] : Fin 2 → Fin S32x32x1.rank)
  bcast_S32_S1x1x32_2 : S32.BroadcastsInDim S1x1x32 (![2] : Fin 1 → Fin S1x1x32.rank)
  bcast_S32x32x1_S32x32x32_0_1_2 : S32x32x1.BroadcastsInDim S32x32x32 (![0, 1, 2] : Fin 3 → Fin S32x32x32.rank)
  bcast_S1x1x32_S32x32x32_0_1_2 : S1x1x32.BroadcastsInDim S32x32x32 (![0, 1, 2] : Fin 3 → Fin S32x32x32.rank)
  bcast_S32x2048x64_S32x1x2048x64_0_2_3 : S32x2048x64.BroadcastsInDim S32x1x2048x64 (![0, 2, 3] : Fin 3 → Fin S32x1x2048x64.rank)
  bcast_S32x32x32_S32x32x32x1_0_1_2 : S32x32x32.BroadcastsInDim S32x32x32x1 (![0, 1, 2] : Fin 3 → Fin S32x32x32x1.rank)
  bcast_S_S32x32x32x1 : S_.BroadcastsInDim S32x32x32x1 (![] : Fin 0 → Fin S32x32x32x1.rank)
  shapeCasts_S32x1x2048x64_S32x2048x64 : S32x1x2048x64.ShapeCasts S32x2048x64
  bcast_S1_S1x1x1x1_3 : S1.BroadcastsInDim S1x1x1x1 (![3] : Fin 1 → Fin S1x1x1x1.rank)
  bcast_S1x1x1x1_S32x32x32x1_0_1_2_3 : S1x1x1x1.BroadcastsInDim S32x32x32x1 (![0, 1, 2, 3] : Fin 4 → Fin S32x32x32x1.rank)
  reducesTo_S32x32x32x1_S32x32x32_d3 : S32x32x32x1.ReducesTo [3] S32x32x32
  h_S_ : 0 < S_.numel
  bcast_S32x32x32_S32x32x32x64_0_1_2 : S32x32x32.BroadcastsInDim S32x32x32x64 (![0, 1, 2] : Fin 3 → Fin S32x32x32x64.rank)
  bcast_S_S32x32x32x64 : S_.BroadcastsInDim S32x32x32x64 (![] : Fin 0 → Fin S32x32x32x64.rank)
  slices_S32x32x2_S32x32x1_0_0_1 : S32x32x2.Slices ![0, 0, 1] S32x32x1
  bcast_S32x1024x64_S32x1x1024x64_0_2_3 : S32x1024x64.BroadcastsInDim S32x1x1024x64 (![0, 2, 3] : Fin 3 → Fin S32x1x1024x64.rank)
  shapeCasts_S32x1x1024x64_S32x1024x64 : S32x1x1024x64.ShapeCasts S32x1024x64
  bcast_S32x32x32x64_S32x32x1x32x64_0_1_3_4 : S32x32x32x64.BroadcastsInDim S32x32x1x32x64 (![0, 1, 3, 4] : Fin 4 → Fin S32x32x1x32x64.rank)
  bcast_S32x32x1x32x64_S32x32x32x32x64_0_1_2_3_4 : S32x32x1x32x64.BroadcastsInDim S32x32x32x32x64 (![0, 1, 2, 3, 4] : Fin 5 → Fin S32x32x32x32x64.rank)
  bcast_S32x32x32x64_S32x32x32x1x64_0_1_2_4 : S32x32x32x64.BroadcastsInDim S32x32x32x1x64 (![0, 1, 2, 4] : Fin 4 → Fin S32x32x32x1x64.rank)
  bcast_S32x32x32x1x64_S32x32x32x32x64_0_1_2_3_4 : S32x32x32x1x64.BroadcastsInDim S32x32x32x32x64 (![0, 1, 2, 3, 4] : Fin 5 → Fin S32x32x32x32x64.rank)
  bcast_S32x32x32x32_S32x32x32x32x1_0_1_2_3 : S32x32x32x32.BroadcastsInDim S32x32x32x32x1 (![0, 1, 2, 3] : Fin 4 → Fin S32x32x32x32x1.rank)
  concatenates_S32x32x32x32x64_S32x32x32x32x64_S32x32x32x32x1_S32x32x32x32x129_d4 : Shape.Concatenates [S32x32x32x32x64, S32x32x32x32x64, S32x32x32x32x1] S32x32x32x32x129 4
  gather_S32x2048x64_S32x32x32x1_S32x32x32x64_3_1_0_0_1_3_1164_wf : GatherDims.WF S32x2048x64 S32x32x32x1 S32x32x32x64 [3] [1] [0] [1] [0] 3 ![1, 1, 64]
  gather_S32x1024x64_S32x32x32x1_S32x32x32x64_3_1_0_0_1_3_1164_wf : GatherDims.WF S32x1024x64 S32x32x32x1 S32x32x32x64 [3] [1] [0] [1] [0] 3 ![1, 1, 64]

variable [Facts₀]

def gather_S32x2048x64_S32x32x32x1_S32x32x32x64_3_1_0_0_1_3_1164 : GatherDims S32x2048x64 S32x32x32x1 S32x32x32x64 where
  offsetDims := [3]
  collapsedSliceDims := [1]
  operandBatchingDims := [0]
  startIndicesBatchingDims := [0]
  startIndexMap := [1]
  indexVectorDim := 3
  sliceSizes := ![1, 1, 64]
  wf := gather_S32x2048x64_S32x32x32x1_S32x32x32x64_3_1_0_0_1_3_1164_wf
def gather_S32x1024x64_S32x32x32x1_S32x32x32x64_3_1_0_0_1_3_1164 : GatherDims S32x1024x64 S32x32x32x1 S32x32x32x64 where
  offsetDims := [3]
  collapsedSliceDims := [1]
  operandBatchingDims := [0]
  startIndicesBatchingDims := [0]
  startIndexMap := [1]
  indexVectorDim := 3
  sliceSizes := ![1, 1, 64]
  wf := gather_S32x1024x64_S32x32x32x1_S32x32x32x64_3_1_0_0_1_3_1164_wf

class Facts : Prop extends Facts₀ where

variable [Facts]
-- ==== Proof.PatchLayout.lean ====
/-
  The array of patch blocks, as one function of its three sources.

  Write `rows` and `cols` for the two gathered arrays, of shape [32, 32, 32, 64] (batch, patch, position in the patch,
  channel), and `geo` for the array of shape [32, 32, 32, 32] (batch, patch, position a, position s). The result has shape
  [32, 32, 32, 32, 129] and its entry at (b, p, a, s, k) is a concatenation along the last axis of three pieces:

    k < 64          the row patch's channel k at position s:          rows (b, p, s, k)
    64 ≤ k < 128    the column patch's channel k - 64 at position a:  cols (b, p, a, k - 64)
    k = 128         the geometry entry of the pair of positions:      geo (b, p, a, s)

  So the row piece does not depend on `a`, the column piece does not depend on `s`, and no arithmetic is done on any
  entry: the array only re-lays its sources. Both programs are shown to compute this function.
-/
import Idealize.ShloMosaic.Lib.ValueIdx

namespace Cert.PatchLayout

open Idealize.ShloMosaic Idealize.ShloMosaic.ValueIdx

/-- The shape of a gathered array of patches: batch, patch, position, channel. -/
abbrev Patches : Shape := ⟨4, ![32, 32, 32, 64]⟩
/-- The shape of the geometry array: batch, patch, position a, position s. -/
abbrev Pairs : Shape := ⟨4, ![32, 32, 32, 32]⟩
/-- The shape of the result: batch, patch, position a, position s, joined channel. -/
abbrev Blocks : Shape := ⟨5, ![32, 32, 32, 32, 129]⟩

variable {α : Type}

/-- The entry at (b, p, a, s, k): which source it comes from is decided by the joined channel `k` alone. -/
def entry (rows cols : Patches.Idx → α) (geo : Pairs.Idx → α) (b p a s : Fin 32) (k : Fin 129) : α :=
  if h : k.val < 64 then rows (ix4 b p s ⟨k.val, h⟩)
  else if h' : k.val < 128 then cols (ix4 b p a ⟨k.val - 64, by omega⟩)
  else geo (ix4 b p a s)

/-- The whole array: `entry` at the coordinates of the index. -/
def blocks (rows cols : Patches.Idx → α) (geo : Pairs.Idx → α) : Blocks.Idx → α := fun i =>
  entry rows cols geo ⟨(i 0).val, (i 0).isLt⟩ ⟨(i 1).val, (i 1).isLt⟩ ⟨(i 2).val, (i 2).isLt⟩ ⟨(i 3).val, (i 3).isLt⟩
    ⟨(i 4).val, (i 4).isLt⟩

theorem blocks_ix5 (rows cols : Patches.Idx → α) (geo : Pairs.Idx → α) (b p a s : Fin 32) (k : Fin 129) :
    blocks rows cols geo (ix5 b p a s k) = entry rows cols geo b p a s k := rfl

/-- On the first 64 joined channels the entry is the row patch's. -/
theorem entry_row (rows cols : Patches.Idx → α) (geo : Pairs.Idx → α) (b p a s : Fin 32) (k : Fin 129) (h : k.val < 64) :
    entry rows cols geo b p a s k = rows (ix4 b p s ⟨k.val, h⟩) := by
  unfold entry; rw [dif_pos h]

/-- On the next 64 it is the column patch's. -/
theorem entry_col (rows cols : Patches.Idx → α) (geo : Pairs.Idx → α) (b p a s : Fin 32) (k : Fin 129) (h : ¬ k.val < 64)
    (h' : k.val < 128) : entry rows cols geo b p a s k = cols (ix4 b p a ⟨k.val - 64, by omega⟩) := by
  unfold entry; rw [dif_neg h, dif_pos h']

/-- The last joined channel is the geometry entry. -/
theorem entry_geo (rows cols : Patches.Idx → α) (geo : Pairs.Idx → α) (b p a s : Fin 32) (k : Fin 129) (h : ¬ k.val < 128) :
    entry rows cols geo b p a s k = geo (ix4 b p a s) := by
  unfold entry; rw [dif_neg (by omega), dif_neg h]

end Cert.PatchLayout
-- ==== Proof.BlockBody.lean ====
/-
  What the kernel body stores, read at an index.

  At one grid point the body loads a row patch `x0` and a column patch `x1`, each of shape [1, 1, 32, 64] (position,
  channel, under two unit axes), and a geometry tile `x2` of shape [1, 1, 32, 32], and stores one block of shape
  [1, 1, 32, 32, 129]. The block is built by layout operations only: the row patch is given a new leading axis and
  repeated along it (so the entry at (a, s, k) is the row patch at (s, k), whatever `a` is), the column patch is given
  a new middle axis and repeated along it (the entry at (a, s, k) is the column patch at (a, k), whatever `s` is), the
  geometry tile is given a trailing unit axis, and the three are joined along the last axis, 64 + 64 + 1 = 129 wide.
  Each lemma below reads one of these pieces at an index by following the index back through the casts and the
  repetition; the last one reads the joined block.
-/
import proofs.«157054_j32521492365666_2_alg».proof.Proof.Gen.KernelIdeal.Skeleton
import proofs.«157054_j32521492365666_2_alg».proof.Proof.PatchLayout
import Idealize.ShloMosaic.Lib.ValueIdx
import Idealize.ShloMosaic.Lib.Pipeline.Value

noncomputable section

namespace Cert.KernelIdeal.BlockBody

open Cert.KernelIdeal Cert.KernelIdeal.Gen Idealize.ShloMosaic Idealize.ShloMosaic.ValueIdx

variable {F : FTy → Type} [FloatOps F]

/-- The row patch, re-laid as [1, 32, 64] and repeated along a new leading axis of 32: at (a, s, k) it is the patch
    at (s, k). The casts keep the row-major position; the repetition reads its operand at 0 on the repeated axis. -/
theorem rowPiece_apply (x0 : Vec F S1x1x32x64 .f32) (a s : Fin 32) (k : Fin 64) :
    broadcastTo S32x32x64
        (shapeCast S1x32x64 (shapeCast S1x32x64 (shapeCast S32x64 x0 shapeCasts_S1x1x32x64_S32x64) shapeCasts_S32x64_S1x32x64)
          shapeCasts_S1x32x64_S1x32x64)
        broadcasts_S1x32x64_S32x32x64 (ix3 a s k)
      = x0 (ix4 (0 : Fin 1) (0 : Fin 1) s k) := by
  refine (broadcastTo_apply _ broadcasts_S1x32x64_S32x32x64 (ix3 a s k) (ix3 (0 : Fin 1) s k) (fun d => match d with
    | ⟨0, _⟩ => by show 0 = if (1 : Nat) = 1 then 0 else a.val; rw [if_pos rfl]
    | ⟨1, _⟩ => by show s.val = if (32 : Nat) = 1 then 0 else s.val; rw [if_neg (by decide)]
    | ⟨2, _⟩ => by show k.val = if (64 : Nat) = 1 then 0 else k.val; rw [if_neg (by decide)])).trans ?_
  rw [shapeCast_self]
  refine (shapeCast_apply _ shapeCasts_S32x64_S1x32x64 (ix3 (0 : Fin 1) s k) (ix2 s k) (by
    rw [Shape.rowMajor_val_two, Shape.rowMajor_val_three]
    show s.val * 64 + k.val = (0 * 32 + s.val) * 64 + k.val; omega)).trans ?_
  exact shapeCast_apply x0 shapeCasts_S1x1x32x64_S32x64 (ix2 s k) (ix4 (0 : Fin 1) (0 : Fin 1) s k) (by
    rw [Shape.rowMajor_val_four, Shape.rowMajor_val_two]
    show ((0 * 1 + 0) * 32 + s.val) * 64 + k.val = s.val * 64 + k.val; omega)

/-- The column patch, re-laid as [32, 1, 64] and repeated along the new middle axis of 32: at (a, s, k) it is the
    patch at (a, k). -/
theorem colPiece_apply (x1 : Vec F S1x1x32x64 .f32) (a s : Fin 32) (k : Fin 64) :
    broadcastTo S32x32x64
        (shapeCast S32x1x64 (shapeCast S32x1x64 (shapeCast S32x64 x1 shapeCasts_S1x1x32x64_S32x64) shapeCasts_S32x64_S32x1x64)
          shapeCasts_S32x1x64_S32x1x64)
        broadcasts_S32x1x64_S32x32x64 (ix3 a s k)
      = x1 (ix4 (0 : Fin 1) (0 : Fin 1) a k) := by
  refine (broadcastTo_apply _ broadcasts_S32x1x64_S32x32x64 (ix3 a s k) (ix3 a (0 : Fin 1) k) (fun d => match d with
    | ⟨0, _⟩ => by show a.val = if (32 : Nat) = 1 then 0 else a.val; rw [if_neg (by decide)]
    | ⟨1, _⟩ => by show 0 = if (1 : Nat) = 1 then 0 else s.val; rw [if_pos rfl]
    | ⟨2, _⟩ => by show k.val = if (64 : Nat) = 1 then 0 else k.val; rw [if_neg (by decide)])).trans ?_
  rw [shapeCast_self]
  refine (shapeCast_apply _ shapeCasts_S32x64_S32x1x64 (ix3 a (0 : Fin 1) k) (ix2 a k) (by
    rw [Shape.rowMajor_val_two, Shape.rowMajor_val_three]
    show a.val * 64 + k.val = (a.val * 1 + 0) * 64 + k.val; omega)).trans ?_
  exact shapeCast_apply x1 shapeCasts_S1x1x32x64_S32x64 (ix2 a k) (ix4 (0 : Fin 1) (0 : Fin 1) a k) (by
    rw [Shape.rowMajor_val_four, Shape.rowMajor_val_two]
    show ((0 * 1 + 0) * 32 + a.val) * 64 + k.val = a.val * 64 + k.val; omega)

/-- The geometry tile with a trailing unit axis: at (a, s, 0) it is the tile at (a, s). -/
theorem geoPiece_apply (x2 : Vec F S1x1x32x32 .f32) (a s : Fin 32) (z : Fin 1) :
    shapeCast S32x32x1 (shapeCast S32x32 x2 shapeCasts_S1x1x32x32_S32x32) shapeCasts_S32x32_S32x32x1 (ix3 a s z)
      = x2 (ix4 (0 : Fin 1) (0 : Fin 1) a s) := by
  have hz : z.val = 0 := by omega
  refine (shapeCast_apply _ shapeCasts_S32x32_S32x32x1 (ix3 a s z) (ix2 a s) (by
    rw [Shape.rowMajor_val_two, Shape.rowMajor_val_three]
    show a.val * 32 + s.val = (a.val * 32 + s.val) * 1 + z.val; omega)).trans ?_
  exact shapeCast_apply x2 shapeCasts_S1x1x32x32_S32x32 (ix2 a s) (ix4 (0 : Fin 1) (0 : Fin 1) a s) (by
    rw [Shape.rowMajor_val_four, Shape.rowMajor_val_two]
    show ((0 * 1 + 0) * 32 + a.val) * 32 + s.val = a.val * 32 + s.val; omega)

/-- The three pieces the body joins along the last axis: the repeated row patch, the repeated column patch, the geometry
    tile with its unit axis. -/
abbrev pieces (x0 x1 : Vec F S1x1x32x64 .f32) (x2 : Vec F S1x1x32x32 .f32) : List ((s : Shape) × (s.Idx → Elt F .f32)) :=
  [⟨S32x32x64, broadcastTo S32x32x64
      (shapeCast S1x32x64 (shapeCast S1x32x64 (shapeCast S32x64 x0 shapeCasts_S1x1x32x64_S32x64) shapeCasts_S32x64_S1x32x64)
        shapeCasts_S1x32x64_S1x32x64) broadcasts_S1x32x64_S32x32x64⟩,
   ⟨S32x32x64, broadcastTo S32x32x64
      (shapeCast S32x1x64 (shapeCast S32x1x64 (shapeCast S32x64 x1 shapeCasts_S1x1x32x64_S32x64) shapeCasts_S32x64_S32x1x64)
        shapeCasts_S32x1x64_S32x1x64) broadcasts_S32x1x64_S32x32x64⟩,
   ⟨S32x32x1, shapeCast S32x32x1 (shapeCast S32x32 x2 shapeCasts_S1x1x32x32_S32x32) shapeCasts_S32x32_S32x32x1⟩]

/-- The stored block is the joined tile seen under two leading unit axes: same row-major position. -/
theorem pay_joined (x0 x1 : Vec F S1x1x32x64 .f32) (x2 : Vec F S1x1x32x32 .f32) (a s : Fin 32) (k : Fin 129) :
    k0_pay1 x0 x1 x2 (ix5 (0 : Fin 1) (0 : Fin 1) a s k)
      = concatenate S32x32x129 2 (pieces x0 x1 x2)
          concatenates_S32x32x64_S32x32x64_S32x32x1_S32x32x129_d2 (ix3 a s k) := by
  unfold k0_pay1
  exact shapeCast_apply _ shapeCasts_S32x32x129_S1x1x32x32x129 (ix5 (0 : Fin 1) (0 : Fin 1) a s k) (ix3 a s k) (by
    rw [Shape.rowMajor_val_three, Shape.rowMajor_val_five]
    show (a.val * 32 + s.val) * 129 + k.val = ((((0 * 1 + 0) * 32 + a.val) * 32 + s.val) * 129 + k.val); omega)

/-- Below 64 on the joined axis the block holds the row patch at (s, k): the first piece of the join. -/
theorem pay_row (x0 x1 : Vec F S1x1x32x64 .f32) (x2 : Vec F S1x1x32x32 .f32) (a s : Fin 32) (k : Fin 129) (h : k.val < 64) :
    k0_pay1 x0 x1 x2 (ix5 (0 : Fin 1) (0 : Fin 1) a s k) = x0 (ix4 (0 : Fin 1) (0 : Fin 1) s ⟨k.val, h⟩) := by
  refine (pay_joined x0 x1 x2 a s k).trans ?_
  refine (concatenate_apply_piece (t := S32x32x129) (2 : Fin 3) (pieces x0 x1 x2) concatenates_S32x32x64_S32x32x64_S32x32x1_S32x32x129_d2 (ix3 a s k)
    0 (by show 0 < 3; omega) S32x32x64 _ rfl rfl 0 rfl (ix3 a s (⟨k.val, h⟩ : Fin 64))
    (fun d hd => match d, hd with
      | ⟨0, _⟩, _ => rfl
      | ⟨1, _⟩, _ => rfl
      | ⟨2, _⟩, hd => absurd rfl hd)
    (by show 0 + k.val = k.val; omega)).trans ?_
  exact rowPiece_apply x0 a s ⟨k.val, h⟩

/-- From 64 and below 128 it holds the column patch at (a, k - 64): the second piece, which starts at 64. -/
theorem pay_col (x0 x1 : Vec F S1x1x32x64 .f32) (x2 : Vec F S1x1x32x32 .f32) (a s : Fin 32) (k : Fin 129) (h : 64 ≤ k.val)
    (h' : k.val < 128) :
    k0_pay1 x0 x1 x2 (ix5 (0 : Fin 1) (0 : Fin 1) a s k) = x1 (ix4 (0 : Fin 1) (0 : Fin 1) a ⟨k.val - 64, by omega⟩) := by
  refine (pay_joined x0 x1 x2 a s k).trans ?_
  refine (concatenate_apply_piece (t := S32x32x129) (2 : Fin 3) (pieces x0 x1 x2) concatenates_S32x32x64_S32x32x64_S32x32x1_S32x32x129_d2 (ix3 a s k)
    1 (by show 1 < 3; omega) S32x32x64 _ rfl rfl 64 rfl (ix3 a s (⟨k.val - 64, by omega⟩ : Fin 64))
    (fun d hd => match d, hd with
      | ⟨0, _⟩, _ => rfl
      | ⟨1, _⟩, _ => rfl
      | ⟨2, _⟩, hd => absurd rfl hd)
    (by show 64 + (k.val - 64) = k.val; omega)).trans ?_
  exact colPiece_apply x1 a s ⟨k.val - 64, by omega⟩

/-- At 128, the last place of the joined axis, it holds the geometry tile at (a, s): the third piece, one wide. -/
theorem pay_geo (x0 x1 : Vec F S1x1x32x64 .f32) (x2 : Vec F S1x1x32x32 .f32) (a s : Fin 32) (k : Fin 129) (h : 128 ≤ k.val) :
    k0_pay1 x0 x1 x2 (ix5 (0 : Fin 1) (0 : Fin 1) a s k) = x2 (ix4 (0 : Fin 1) (0 : Fin 1) a s) := by
  have hk : k.val = 128 := by have := k.isLt; omega
  refine (pay_joined x0 x1 x2 a s k).trans ?_
  refine (concatenate_apply_piece (t := S32x32x129) (2 : Fin 3) (pieces x0 x1 x2) concatenates_S32x32x64_S32x32x64_S32x32x1_S32x32x129_d2 (ix3 a s k)
    2 (by show 2 < 3; omega) S32x32x1 _ rfl rfl 128 rfl (ix3 a s (0 : Fin 1))
    (fun d hd => match d, hd with
      | ⟨0, _⟩, _ => rfl
      | ⟨1, _⟩, _ => rfl
      | ⟨2, _⟩, hd => absurd rfl hd)
    (by show 128 + 0 = k.val; omega)).trans ?_
  exact geoPiece_apply x2 a s 0

open Cert.PatchLayout in
/-- THE BLOCK OF ONE GRID POINT. If the three loaded patches are the patches of batch `b` and patch `p` of whole arrays
    `R`, `C` (gathered rows and columns) and `G` (geometry), then what the body stores at (0, 0, a, s, k) is the entry at
    (b, p, a, s, k) of the array of patch blocks of `R`, `C`, `G`: the two agree piece by piece of the joined axis. -/
theorem block_eq (x0 x1 : Vec F S1x1x32x64 .f32) (x2 : Vec F S1x1x32x32 .f32)
    (R C : Patches.Idx → Elt F .f32) (G : Pairs.Idx → Elt F .f32) (b p : Fin 32)
    (h0 : ∀ (s : Fin 32) (k : Fin 64), x0 (ix4 (0 : Fin 1) (0 : Fin 1) s k) = R (ix4 b p s k))
    (h1 : ∀ (a : Fin 32) (k : Fin 64), x1 (ix4 (0 : Fin 1) (0 : Fin 1) a k) = C (ix4 b p a k))
    (h2 : ∀ (a s : Fin 32), x2 (ix4 (0 : Fin 1) (0 : Fin 1) a s) = G (ix4 b p a s))
    (a s : Fin 32) (k : Fin 129) :
    k0_pay1 x0 x1 x2 (ix5 (0 : Fin 1) (0 : Fin 1) a s k) = blocks R C G (ix5 b p a s k) := by
  rw [blocks_ix5]
  by_cases h : k.val < 64
  · rw [entry_row R C G b p a s k h, pay_row x0 x1 x2 a s k h]
    exact h0 s ⟨k.val, h⟩
  · by_cases h' : k.val < 128
    · rw [entry_col R C G b p a s k h h', pay_col x0 x1 x2 a s k (by omega) h']
      exact h1 a ⟨k.val - 64, by omega⟩
    · rw [entry_geo R C G b p a s k h', pay_geo x0 x1 x2 a s k (by omega)]
      exact h2 a s

end Cert.KernelIdeal.BlockBody

end
-- ==== Proof.KernelArray.lean ====
/-
  From the blocks the grid points write to the whole result array.

  The grid has 32 × 32 points; point `t` is batch `t / 32`, patch `t % 32`. Every window is cut only along its two
  leading axes, one batch and one patch per block, so at point `t` the three input blocks are the row patch, the column
  patch and the geometry tile of that (batch, patch), and the output block is the [32, 32, 129] slab of the result at
  that (batch, patch). By the block lemma the slab the body stores is the corresponding slab of the array of patch
  blocks; the slabs of the 1024 points tile the result, so the result IS that array.
-/
import proofs.«157054_j32521492365666_2_alg».proof.Proof.Gen.KernelIdeal.Value
import proofs.«157054_j32521492365666_2_alg».proof.Proof.BlockBody

noncomputable section

namespace Cert.KernelIdeal.Array

open Cert.KernelIdeal Cert.KernelIdeal.Gen Idealize.ShloMosaic Idealize.ShloMosaic.TcCoe Idealize.SL.Sem
open Idealize.ShloMosaic.ValueIdx Cert.PatchLayout
open Idealize.ShloMosaic.Pipeline (Dat)

variable {F : FTy → Type} [FloatOps F]
variable (m : (ℓ : Loc nD τ sig) → Buf (Elt F) ℓ) (ρ : Dev nD → PrngReg)

theorem zero4 : (![0, 0, 0, 0] : Fin 4 → Nat) = fun _ => 0 := funext fun a => by fin_cases a <;> rfl
theorem zero5 : (![0, 0, 0, 0, 0] : Fin 5 → Nat) = fun _ => 0 := funext fun a => by fin_cases a <;> rfl

/-! ## Which block each point touches -/

/-- The output window's block index at point `t`: batch `t / 32`, patch `t % 32`, and the whole of the other three axes. -/
theorem out_index : ∀ t : Fin cfg0.N, win0_3.index t (0 : Fin 5) = t.val / 32 ∧ win0_3.index t (1 : Fin 5) = t.val % 32
    ∧ win0_3.index t (2 : Fin 5) = 0 ∧ win0_3.index t (3 : Fin 5) = 0 ∧ win0_3.index t (4 : Fin 5) = 0 :=
  (by decide +kernel : ∀ t : Fin grid0.N, _)

/-- The row patches' window moves with it. -/
theorem rows_index : ∀ t : Fin cfg0.N, win0_0.index t (0 : Fin 4) = t.val / 32 ∧ win0_0.index t (1 : Fin 4) = t.val % 32
    ∧ win0_0.index t (2 : Fin 4) = 0 ∧ win0_0.index t (3 : Fin 4) = 0 :=
  (by decide +kernel : ∀ t : Fin grid0.N, _)

/-- So does the column patches' window. -/
theorem cols_index : ∀ t : Fin cfg0.N, win0_1.index t (0 : Fin 4) = t.val / 32 ∧ win0_1.index t (1 : Fin 4) = t.val % 32
    ∧ win0_1.index t (2 : Fin 4) = 0 ∧ win0_1.index t (3 : Fin 4) = 0 :=
  (by decide +kernel : ∀ t : Fin grid0.N, _)

/-- And the geometry's. -/
theorem geo_index : ∀ t : Fin cfg0.N, win0_2.index t (0 : Fin 4) = t.val / 32 ∧ win0_2.index t (1 : Fin 4) = t.val % 32
    ∧ win0_2.index t (2 : Fin 4) = 0 ∧ win0_2.index t (3 : Fin 4) = 0 :=
  (by decide +kernel : ∀ t : Fin grid0.N, _)

theorem lt_points (t : Fin cfg0.N) : t.val < 1024 := by
  have h : t.val < grid0.N := t.isLt
  rw [N_0] at h; exact h

/-- The batch of point `t`. -/
def batchOf (t : Fin cfg0.N) : Fin 32 := ⟨t.val / 32, by have := lt_points t; omega⟩
/-- The patch of point `t`. -/
def patchOf (t : Fin cfg0.N) : Fin 32 := ⟨t.val % 32, by omega⟩

/-! ## The input blocks at a point are the patches of its batch and patch -/

theorem rows_read (c : Dev nD) (t : Fin cfg0.N) (s : Fin 32) (k : Fin 64) :
    iblk m c 0 t (ix4 (0 : Fin 1) (0 : Fin 1) s k) = V m c main_v10 (ix4 (batchOf t) (patchOf t) s k) := by
  obtain ⟨e0, e1, e2, e3⟩ := rows_index t
  show V m c main_v10 (((cfg0.win 0).blk t).view.emb (ix4 (0 : Fin 1) (0 : Fin 1) s k)) = _
  refine congrArg (V m c main_v10) (funext fun d => Fin.ext ?_)
  match d with
  | ⟨0, _⟩ => show win0_0.index t (0 : Fin 4) * 1 + 1 * 0 = t.val / 32; omega
  | ⟨1, _⟩ => show win0_0.index t (1 : Fin 4) * 1 + 1 * 0 = t.val % 32; omega
  | ⟨2, _⟩ => show win0_0.index t (2 : Fin 4) * 32 + 1 * s.val = s.val; omega
  | ⟨3, _⟩ => show win0_0.index t (3 : Fin 4) * 64 + 1 * k.val = k.val; omega

theorem cols_read (c : Dev nD) (t : Fin cfg0.N) (a : Fin 32) (k : Fin 64) :
    iblk m c 1 t (ix4 (0 : Fin 1) (0 : Fin 1) a k) = V m c main_v21 (ix4 (batchOf t) (patchOf t) a k) := by
  obtain ⟨e0, e1, e2, e3⟩ := cols_index t
  show V m c main_v21 (((cfg0.win 1).blk t).view.emb (ix4 (0 : Fin 1) (0 : Fin 1) a k)) = _
  refine congrArg (V m c main_v21) (funext fun d => Fin.ext ?_)
  match d with
  | ⟨0, _⟩ => show win0_1.index t (0 : Fin 4) * 1 + 1 * 0 = t.val / 32; omega
  | ⟨1, _⟩ => show win0_1.index t (1 : Fin 4) * 1 + 1 * 0 = t.val % 32; omega
  | ⟨2, _⟩ => show win0_1.index t (2 : Fin 4) * 32 + 1 * a.val = a.val; omega
  | ⟨3, _⟩ => show win0_1.index t (3 : Fin 4) * 64 + 1 * k.val = k.val; omega

theorem geo_read (c : Dev nD) (t : Fin cfg0.N) (a s : Fin 32) :
    iblk m c 2 t (ix4 (0 : Fin 1) (0 : Fin 1) a s) = V m c main_arg3 (ix4 (batchOf t) (patchOf t) a s) := by
  obtain ⟨e0, e1, e2, e3⟩ := geo_index t
  show V m c main_arg3 (((cfg0.win 2).blk t).view.emb (ix4 (0 : Fin 1) (0 : Fin 1) a s)) = _
  refine congrArg (V m c main_arg3) (funext fun d => Fin.ext ?_)
  match d with
  | ⟨0, _⟩ => show win0_2.index t (0 : Fin 4) * 1 + 1 * 0 = t.val / 32; omega
  | ⟨1, _⟩ => show win0_2.index t (1 : Fin 4) * 1 + 1 * 0 = t.val % 32; omega
  | ⟨2, _⟩ => show win0_2.index t (2 : Fin 4) * 32 + 1 * a.val = a.val; omega
  | ⟨3, _⟩ => show win0_2.index t (3 : Fin 4) * 32 + 1 * s.val = s.val; omega

/-! ## What a point writes back -/

/-- WHAT POINT `t` WRITES BACK is its slab of the array of patch blocks of the gathered rows, the gathered columns and
    the geometry, as the region finds them. -/
theorem flushed_eq (c : Dev nD) (t : Fin cfg0.N) :
    (dats m 0 c).flushed 3 t
      = ((cfg0.win 3).blk t).view.read (Elt F) (blocks (V m c main_v10) (V m c main_v21) (V m c main_arg3)) := by
  rw [Cert.KernelIdeal.Value.flushed3]
  unfold out0_3
  rw [View.canon_unit_zero zero5]
  simp only [View.ld_unit_zero (S := S1x1x32x64) zero4, View.ld_unit_zero (S := S1x1x32x32) zero4]
  obtain ⟨e0, e1, e2, e3, e4⟩ := out_index t
  funext j
  have hj0 : (j 0).val < 1 := (j 0).isLt
  have hj1 : (j 1).val < 1 := (j 1).isLt
  have hin : (cfg0.win 3).xinj (grid0.coords t) j
      = ix5 (0 : Fin 1) (0 : Fin 1) (⟨(j 2).val, (j 2).isLt⟩ : Fin 32) (⟨(j 3).val, (j 3).isLt⟩ : Fin 32) (⟨(j 4).val, (j 4).isLt⟩ : Fin 129) := by
    funext d; apply Fin.ext
    match d with
    | ⟨0, _⟩ => show (j 0).val = 0; omega
    | ⟨1, _⟩ => show (j 1).val = 0; omega
    | ⟨2, _⟩ => rfl
    | ⟨3, _⟩ => rfl
    | ⟨4, _⟩ => rfl
  have hemb : ((cfg0.win 3).blk t).view.emb j
      = ix5 (batchOf t) (patchOf t) (⟨(j 2).val, (j 2).isLt⟩ : Fin 32) (⟨(j 3).val, (j 3).isLt⟩ : Fin 32) (⟨(j 4).val, (j 4).isLt⟩ : Fin 129) := by
    funext d; apply Fin.ext
    match d with
    | ⟨0, _⟩ => show win0_3.index t (0 : Fin 5) * 1 + 1 * (j 0).val = t.val / 32; omega
    | ⟨1, _⟩ => show win0_3.index t (1 : Fin 5) * 1 + 1 * (j 1).val = t.val % 32; omega
    | ⟨2, _⟩ => show win0_3.index t (2 : Fin 5) * 32 + 1 * (j 2).val = (j 2).val; omega
    | ⟨3, _⟩ => show win0_3.index t (3 : Fin 5) * 32 + 1 * (j 3).val = (j 3).val; omega
    | ⟨4, _⟩ => show win0_3.index t (4 : Fin 5) * 129 + 1 * (j 4).val = (j 4).val; omega
  show k0_pay1 (iblk m c 0 t) (iblk m c 1 t) (iblk m c 2 t) ((cfg0.win 3).xinj (grid0.coords t) j)
      = blocks (V m c main_v10) (V m c main_v21) (V m c main_arg3) (((cfg0.win 3).blk t).view.emb j)
  rw [hin, hemb]
  exact Cert.KernelIdeal.BlockBody.block_eq (iblk m c 0 t) (iblk m c 1 t) (iblk m c 2 t)
    (V m c main_v10) (V m c main_v21) (V m c main_arg3) (batchOf t) (patchOf t)
    (rows_read m c t) (cols_read m c t) (geo_read m c t) _ _ _

/-! ## The slabs tile the result -/

/-- An index of the result is in point `t`'s slab iff each coordinate is in the slab's range on its axis. -/
theorem mem_blk (t : Fin cfg0.N) (i : S32x32x32x32x129.Idx) :
    i ∈ ((cfg0.win 3).blk t).view.set ↔ ∀ a : Fin 5, win0_3.index t a * S1x1x32x32x129.size a ≤ (i a).val
      ∧ (i a).val < win0_3.index t a * S1x1x32x32x129.size a + S1x1x32x32x129.size a := by
  show i ∈ ((View.whole main_v22).slice (win0_3.rect t)).set ↔ _
  rw [View.set_slice_whole, Rect.mem_set_unit]
  exact Iff.rfl

/-- Every index (b, p, a, s, k) of the result is in the slab of the point of batch `b` and patch `p`, point `b * 32 + p`. -/
theorem covered (i : S32x32x32x32x129.Idx) :
    ∃ t : Fin cfg0.N, (cfg0.win 3).flush t = true ∧ i ∈ ((cfg0.win 3).blk t).view.set := by
  have h0 : (i 0).val < 32 := (i 0).isLt
  have h1 : (i 1).val < 32 := (i 1).isLt
  have h2 : (i 2).val < 32 := (i 2).isLt
  have h3 : (i 3).val < 32 := (i 3).isLt
  have h4 : (i 4).val < 129 := (i 4).isLt
  have hN : (i 0).val * 32 + (i 1).val < cfg0.N := by
    show (i 0).val * 32 + (i 1).val < grid0.N
    rw [N_0]; omega
  obtain ⟨e0, e1, e2, e3, e4⟩ := out_index ⟨(i 0).val * 32 + (i 1).val, hN⟩
  have v : (⟨(i 0).val * 32 + (i 1).val, hN⟩ : Fin cfg0.N).val = (i 0).val * 32 + (i 1).val := rfl
  rw [v] at e0 e1
  refine ⟨⟨(i 0).val * 32 + (i 1).val, hN⟩, flush0_3 _, (mem_blk _ i).2 fun a => ?_⟩
  match a with
  | ⟨0, _⟩ =>
    show win0_3.index ⟨(i 0).val * 32 + (i 1).val, hN⟩ (0 : Fin 5) * 1 ≤ (i 0).val
      ∧ (i 0).val < win0_3.index ⟨(i 0).val * 32 + (i 1).val, hN⟩ (0 : Fin 5) * 1 + 1
    omega
  | ⟨1, _⟩ =>
    show win0_3.index ⟨(i 0).val * 32 + (i 1).val, hN⟩ (1 : Fin 5) * 1 ≤ (i 1).val
      ∧ (i 1).val < win0_3.index ⟨(i 0).val * 32 + (i 1).val, hN⟩ (1 : Fin 5) * 1 + 1
    omega
  | ⟨2, _⟩ =>
    show win0_3.index ⟨(i 0).val * 32 + (i 1).val, hN⟩ (2 : Fin 5) * 32 ≤ (i 2).val
      ∧ (i 2).val < win0_3.index ⟨(i 0).val * 32 + (i 1).val, hN⟩ (2 : Fin 5) * 32 + 32
    omega
  | ⟨3, _⟩ =>
    show win0_3.index ⟨(i 0).val * 32 + (i 1).val, hN⟩ (3 : Fin 5) * 32 ≤ (i 3).val
      ∧ (i 3).val < win0_3.index ⟨(i 0).val * 32 + (i 1).val, hN⟩ (3 : Fin 5) * 32 + 32
    omega
  | ⟨4, _⟩ =>
    show win0_3.index ⟨(i 0).val * 32 + (i 1).val, hN⟩ (4 : Fin 5) * 129 ≤ (i 4).val
      ∧ (i 4).val < win0_3.index ⟨(i 0).val * 32 + (i 1).val, hN⟩ (4 : Fin 5) * 129 + 129
    omega

/-! ## The result array, and the run -/

/-- THE RESULT after the run is the array of patch blocks of the gathered rows, the gathered columns and the geometry. -/
theorem final (c : Dev nD) :
    (dats m 0 c).arrAt 3 cfg0.N = blocks (V m c main_v10) (V m c main_v21) (V m c main_arg3) :=
  (dats m 0 c).arrAt_eq_of_cover 3 (blocks (V m c main_v10) (V m c main_v21) (V m c main_arg3))
    (fun t _ => flushed_eq m c t) covered

/-- The kernel's run re-posted: the result at that array, the arguments unchanged. -/
theorem run : θ_run defs (onTc (τ := τ) (main (F := F))) ⟨m, fun _ => 0, ρ⟩ fun r => ∀ c : Dev nD,
      r.2.mem ((c : Thread nD τ).loc main_v22) = blocks (V m c main_v10) (V m c main_v21) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Array

end
-- ==== Proof.HostPrefix.lean ====
/-
  The gathered arrays the kernel's region starts from are the reference's.

  Before its one region the kernel's program gathers the row patches and the column patches with exactly the host
  operations the reference uses: the patch's first position, plus the offsets 0 … 31, wrapped if negative, taken out of
  the sequence, and replaced by the filler where the position falls outside the sequence. Reading the two gathered
  buffers after those operations gives, operation for operation, the terms the reference's own stages compute from the
  same argument arrays. (A value passes between an operation inside a called function and its buffer through a transport
  along the equation between the buffer's type and the value's; a transport there and back is the identity, and removing
  those pairs first leaves the two terms to be compared operation by operation.)
-/
import proofs.«157054_j32521492365666_2_alg».proof.Proof.Gen.KernelIdeal.Frame
import proofs.«157054_j32521492365666_2_alg».proof.Proof.RefRead
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The gathered row patches, as the region finds them, are the reference's gathered rows of the same arguments. -/
theorem rows_eq (c : Dev nD) :
    V m c main_v10 = Cert.ReferenceIdeal.ReadP.val_main_v10 (F := F)
      (m ((c : Thread nD τ).loc main_arg0)) (m ((c : Thread nD τ).loc main_arg2)) := by
  dsimp only [V]
  simp only [hostOps0, hostOps0_1, hostOps0_2, hostOps0_3, List.flatten_cons, List.flatten_nil, List.append_nil,
    List.cons_append, List.nil_append]
  after_results_simp
  simp only [TRef.toBuf, TRef.ofBuf, cast_cast, cast_eq]
  rfl

/-- The gathered column patches, as the region finds them, are the reference's gathered columns of the same arguments. -/
theorem cols_eq (c : Dev nD) :
    V m c main_v21 = Cert.ReferenceIdeal.ReadP.val_main_v21 (F := F)
      (m ((c : Thread nD τ).loc main_arg1)) (m ((c : Thread nD τ).loc main_arg2)) := by
  dsimp only [V]
  simp only [hostOps0, hostOps0_1, hostOps0_2, hostOps0_3, List.flatten_cons, List.flatten_nil, List.append_nil,
    List.cons_append, List.nil_append]
  after_results_simp
  simp only [TRef.toBuf, TRef.ofBuf, cast_cast, cast_eq]
  rfl

end Cert.KernelIdeal.HostPrefix

end
-- ==== Proof.RefArray.lean ====
/-
  The reference's result is the array of patch blocks.

  The reference repeats the gathered rows along a new axis in third place (so that the entry at (b, p, a, s, c) is the
  row patch at (b, p, s, c)), repeats the gathered columns along a new axis in fourth place (the entry at (b, p, a, s, c)
  is the column patch at (b, p, a, c)), gives the geometry a trailing unit axis, and joins the three along the last
  axis. Read at an index, the join picks its piece by the last coordinate, and each piece leads back to one entry of
  its source: the array of patch blocks of the gathered rows, the gathered columns and the geometry.
-/
import proofs.«157054_j32521492365666_2_alg».proof.Proof.RefRead
import proofs.«157054_j32521492365666_2_alg».proof.Proof.PatchLayout

noncomputable section

namespace Cert.ReferenceIdeal.Array

open Cert.ReferenceIdeal Cert.ReferenceIdeal.Gen Cert.ReferenceIdeal.ReadP Idealize.ShloMosaic
open Idealize.ShloMosaic.ValueIdx Cert.PatchLayout

variable {F : FTy → Type} [FloatOps F]

/-- The repeated rows at (b, p, a, s, c) come from the gathered rows at (b, p, s, c): the new third axis is dropped. -/
theorem rows_source (b p a s : Fin 32) (k : Fin 64) : idx_main_v22 (idx_main_v23 (ix5 b p a s k)) = ix4 b p s k := by
  funext d
  match d with
  | ⟨0, _⟩ => rfl
  | ⟨1, _⟩ => rfl
  | ⟨2, _⟩ => rfl
  | ⟨3, _⟩ => rfl

/-- The repeated columns at (b, p, a, s, c) come from the gathered columns at (b, p, a, c): the new fourth axis is dropped. -/
theorem cols_source (b p a s : Fin 32) (k : Fin 64) : idx_main_v24 (idx_main_v25 (ix5 b p a s k)) = ix4 b p a k := by
  funext d
  match d with
  | ⟨0, _⟩ => rfl
  | ⟨1, _⟩ => rfl
  | ⟨2, _⟩ => rfl
  | ⟨3, _⟩ => rfl

/-- The geometry with a trailing unit axis at (b, p, a, s, 0) comes from the geometry at (b, p, a, s). -/
theorem geo_source (b p a s : Fin 32) (z : Fin 1) : idx_main_v26 (ix5 b p a s z) = ix4 b p a s := by
  funext d
  match d with
  | ⟨0, _⟩ => rfl
  | ⟨1, _⟩ => rfl
  | ⟨2, _⟩ => rfl
  | ⟨3, _⟩ => rfl

/-- The three pieces the reference joins along the last axis. -/
abbrev pieces (x0 : (⟨S32x2048x64, .f32⟩ : BufTy).Contents (Elt F)) (x1 : (⟨S32x1024x64, .f32⟩ : BufTy).Contents (Elt F))
    (x2 : (⟨S32x32x2, .i32⟩ : BufTy).Contents (Elt F)) (x3 : (⟨S32x32x32x32, .f32⟩ : BufTy).Contents (Elt F)) :
    List ((s : Shape) × (s.Idx → Elt F .f32)) :=
  [⟨S32x32x32x32x64, (val_main_v23 (F := F) x0 x2)⟩, ⟨S32x32x32x32x64, (val_main_v25 (F := F) x1 x2)⟩,
   ⟨S32x32x32x32x1, (val_main_v26 (F := F) x3)⟩]

/-- THE REFERENCE'S RESULT, as a function of its four arguments, is the array of patch blocks of its own gathered rows,
    its own gathered columns and the geometry argument. -/
theorem result_eq (x0 : (⟨S32x2048x64, .f32⟩ : BufTy).Contents (Elt F)) (x1 : (⟨S32x1024x64, .f32⟩ : BufTy).Contents (Elt F))
    (x2 : (⟨S32x32x2, .i32⟩ : BufTy).Contents (Elt F)) (x3 : (⟨S32x32x32x32, .f32⟩ : BufTy).Contents (Elt F)) :
    val_main_v27 (F := F) x0 x1 x2 x3 = blocks (val_main_v10 (F := F) x0 x2) (val_main_v21 (F := F) x1 x2) x3 := by
  funext i
  obtain ⟨b, p, a, s, k, rfl⟩ : ∃ (b p a s : Fin 32) (k : Fin 129), i = ix5 b p a s k :=
    ⟨i 0, i 1, i 2, i 3, i 4, eq_ix5 i⟩
  rw [blocks_ix5]
  unfold val_main_v27
  by_cases h : k.val < 64
  · rw [entry_row _ _ _ b p a s k h]
    refine (concatenate_apply_piece (t := S32x32x32x32x129) (4 : Fin 5) (pieces x0 x1 x2 x3)
      concatenates_S32x32x32x32x64_S32x32x32x32x64_S32x32x32x32x1_S32x32x32x32x129_d4 (ix5 b p a s k)
      0 (by show 0 < 3; omega) S32x32x32x32x64 _ rfl rfl 0 rfl (ix5 b p a s (⟨k.val, h⟩ : Fin 64))
      (fun d hd => match d, hd with
        | ⟨0, _⟩, _ => rfl
        | ⟨1, _⟩, _ => rfl
        | ⟨2, _⟩, _ => rfl
        | ⟨3, _⟩, _ => rfl
        | ⟨4, _⟩, hd => absurd rfl hd)
      (by show 0 + k.val = k.val; omega)).trans ?_
    rw [val_main_v23_apply, val_main_v22_apply, rows_source]
  · by_cases h' : k.val < 128
    · rw [entry_col _ _ _ b p a s k h h']
      refine (concatenate_apply_piece (t := S32x32x32x32x129) (4 : Fin 5) (pieces x0 x1 x2 x3)
        concatenates_S32x32x32x32x64_S32x32x32x32x64_S32x32x32x32x1_S32x32x32x32x129_d4 (ix5 b p a s k)
        1 (by show 1 < 3; omega) S32x32x32x32x64 _ rfl rfl 64 rfl (ix5 b p a s (⟨k.val - 64, by omega⟩ : Fin 64))
        (fun d hd => match d, hd with
          | ⟨0, _⟩, _ => rfl
          | ⟨1, _⟩, _ => rfl
          | ⟨2, _⟩, _ => rfl
          | ⟨3, _⟩, _ => rfl
          | ⟨4, _⟩, hd => absurd rfl hd)
        (by show 64 + (k.val - 64) = k.val; omega)).trans ?_
      rw [val_main_v25_apply, val_main_v24_apply, cols_source]
    · rw [entry_geo _ _ _ b p a s k h']
      have hk : k.val = 128 := by have := k.isLt; omega
      refine (concatenate_apply_piece (t := S32x32x32x32x129) (4 : Fin 5) (pieces x0 x1 x2 x3)
        concatenates_S32x32x32x32x64_S32x32x32x32x64_S32x32x32x32x1_S32x32x32x32x129_d4 (ix5 b p a s k)
        2 (by show 2 < 3; omega) S32x32x32x32x1 _ rfl rfl 128 rfl (ix5 b p a s (0 : Fin 1))
        (fun d hd => match d, hd with
          | ⟨0, _⟩, _ => rfl
          | ⟨1, _⟩, _ => rfl
          | ⟨2, _⟩, _ => rfl
          | ⟨3, _⟩, _ => rfl
          | ⟨4, _⟩, hd => absurd rfl hd)
        (by show 128 + 0 = k.val; omega)).trans ?_
      rw [val_main_v26_apply, geo_source]

end Cert.ReferenceIdeal.Array

end
-- ==== Proof.lean ====
/-
  The kernel and its reference build the same array of patch blocks.

  Both programs first gather, with the same host operations, a row patch and a column patch of 32 positions by 64
  channels for each of 32 batches and 32 patches. The result has, for each batch `b`, patch `p` and pair of positions
  (a, s), a vector of 129 entries: the row patch's 64 channels at position `s`, then the column patch's 64 channels at
  position `a`, then the one geometry entry of the pair (Proof/PatchLayout.lean states this array as a function of its
  three sources). The reference forms it on the host by two repetitions and a join along the last axis
  (Proof/RefArray.lean). The kernel forms it one (batch, patch) slab per grid point: the body repeats the row patch
  along a new leading axis and the column patch along a new middle axis and joins them with the geometry tile
  (Proof/BlockBody.lean), the 1024 slabs tile the result (Proof/KernelArray.lean), and the gathered arrays the region
  starts from are the reference's own (Proof/HostPrefix.lean). No entry is ever computed with: every entry of the
  result is a copy of one entry of an argument or the gather's filler, so the two results agree as they stand, with no
  appeal to the entries being finite. The idealization rewrote nothing, so there is nothing to preserve; the frames are
  the generated ones, the reference's being its run with the result forgotten.
-/
import proofs.«157054_j32521492365666_2_alg».proof.Defs
import proofs.«157054_j32521492365666_2_alg».proof.Proof.Gen.Kernel
import proofs.«157054_j32521492365666_2_alg».proof.Proof.Gen.Kernel.Skeleton
import proofs.«157054_j32521492365666_2_alg».proof.Proof.Gen.Kernel.Launch
import proofs.«157054_j32521492365666_2_alg».proof.Proof.Gen.Kernel.Points
import proofs.«157054_j32521492365666_2_alg».proof.Proof.Gen.Kernel.Frame
import proofs.«157054_j32521492365666_2_alg».proof.Proof.Gen.KernelIdeal
import proofs.«157054_j32521492365666_2_alg».proof.Proof.Gen.KernelIdeal.Skeleton
import proofs.«157054_j32521492365666_2_alg».proof.Proof.Gen.KernelIdeal.Launch
import proofs.«157054_j32521492365666_2_alg».proof.Proof.Gen.KernelIdeal.Points
import proofs.«157054_j32521492365666_2_alg».proof.Proof.Gen.KernelIdeal.Frame
import proofs.«157054_j32521492365666_2_alg».proof.Proof.Gen.ReferenceIdeal
import proofs.«157054_j32521492365666_2_alg».proof.Proof.Gen.Pre_finite_inputs
import proofs.«157054_j32521492365666_2_alg».proof.Proof.Gen.KernelIdeal.Value
import proofs.«157054_j32521492365666_2_alg».proof.Proof.RefRun
import proofs.«157054_j32521492365666_2_alg».proof.Proof.RefRead
import proofs.«157054_j32521492365666_2_alg».proof.Proof.KernelArray
import proofs.«157054_j32521492365666_2_alg».proof.Proof.HostPrefix
import proofs.«157054_j32521492365666_2_alg».proof.Proof.RefArray
import Idealize.ShloMosaic.Adequacy
import Idealize.ShloMosaic.Init

noncomputable section

namespace Cert.Proof

open Idealize.ShloMosaic Idealize.SL.Sem Cert.PatchLayout

theorem frame_kernel : Cert.frame_Kernel := fun m ρ _ => Cert.Kernel.Gen.frame m ρ

theorem frame_kernelIdeal : Cert.frame_KernelIdeal := fun m ρ _ => Cert.KernelIdeal.Gen.frame m ρ

/-- The reference launches no kernel: its frame is its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealized kernel is the kernel's own text read over the extended reals: no rewrite, nothing to preserve. -/
theorem preserves : Cert.preserves_Kernel_KernelIdeal := trivial

/-- From memories that agree on the four arguments both programs end with the array of patch blocks of the gathered rows,
    the gathered columns and the geometry: the kernel by its slabs, the reference by its join, the gathered arrays being
    the same terms of the same arguments. -/
theorem algebraic : Cert.algebraic_KernelIdeal_ReferenceIdeal := by
  intro m ρ m' ρ' _ hagree
  refine ⟨fun c => blocks (Cert.KernelIdeal.Gen.V m c Cert.KernelIdeal.main_v10)
      (Cert.KernelIdeal.Gen.V m c Cert.KernelIdeal.main_v21) (Cert.KernelIdeal.Gen.V m c Cert.KernelIdeal.main_arg3),
    Cert.KernelIdeal.Array.run (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v27 m' c
      = blocks (Cert.KernelIdeal.Gen.V m c Cert.KernelIdeal.main_v10) (Cert.KernelIdeal.Gen.V m c Cert.KernelIdeal.main_v21)
          (Cert.KernelIdeal.Gen.V m c Cert.KernelIdeal.main_arg3)
  rw [Cert.ReferenceIdeal.ReadP.val_main_v27_eq, Cert.ReferenceIdeal.Array.result_eq, (hagree c).1, (hagree c).2.1,
    (hagree c).2.2.1, (hagree c).2.2.2, Cert.KernelIdeal.HostPrefix.rows_eq, Cert.KernelIdeal.HostPrefix.cols_eq,
    Cert.KernelIdeal.Gen.V_main_arg3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
